-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192x8192 1) (main_arg2 : IVec S8192x8192 1) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192x8192 : Shape := ⟨2, ![8192, 8192]⟩
abbrev S4096x256 : Shape := ⟨2, ![4096, 256]⟩
abbrev S4096x8192 : Shape := ⟨2, ![4096, 8192]⟩
abbrev S4096x1 : Shape := ⟨2, ![4096, 1]⟩
abbrev S2048x256 : Shape := ⟨2, ![2048, 256]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S8192x8192, .i1⟩
  | .hbm, ⟨3, _⟩ => ⟨S8192x256, .bf16⟩
  | .hbm, ⟨4, _⟩ => ⟨S4096x256, .bf16⟩
  | .hbm, ⟨5, _⟩ => ⟨S4096x256, .bf16⟩
  | .hbm, ⟨6, _⟩ => ⟨S4096x8192, .i1⟩
  | .hbm, ⟨7, _⟩ => ⟨S4096x8192, .i32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x2048, .i32⟩
  | .local _ .vmem, ⟨7, _⟩ => ⟨S2048x2048, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  slices_S8192x256_S4096x256_0_0 : S8192x256.Slices ![0, 0] S4096x256
  slices_S8192x256_S4096x256_4096_0 : S8192x256.Slices ![4096, 0] S4096x256
  slices_S8192x8192_S4096x8192_0_0 : S8192x8192.Slices ![0, 0] S4096x8192
  natLt_1_32 : 1 < 32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S2048x2048_S2048 : S2048x2048.Reduces [1] S2048
  reducesTo_S4096x1_S_d0_1 : S4096x1.ReducesTo [0, 1] S_
  h_S_ : 0 < S_.numel
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .bf16 = 32 ∨ (Rect.block (s := S4096x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .bf16 = 32 ∨ (Rect.block (s := S8192x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x256.size a
  hwx0_2 : ∀ i : grid0.Coords, EltTy.bits .bf16 = 32 ∨ (Rect.block (s := S4096x256) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S4096x8192.size a
  hwx0_3 : ∀ i : grid0.Coords, EltTy.bits .i32 = 32 ∨ (Rect.block (s := S4096x8192) S2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x8192 : Shape := ⟨2, ![256, 8192]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x8192 : Shape := ⟨2, ![4096, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i1⟩
  | .hbm, ⟨2, _⟩ => ⟨S8192x8192, .i1⟩
  | .hbm, ⟨3, _⟩ => ⟨S256x8192, .f32⟩
  | .hbm, ⟨4, _⟩ => ⟨S8192x8192, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x1, .i32⟩
  | .hbm, ⟨25, _⟩ => ⟨S4096x2, .i32⟩
  | .hbm, ⟨26, _⟩ => ⟨S4096, .f32⟩
  | .hbm, ⟨27, _⟩ => ⟨S4096x8192, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S4096x8192, .i1⟩
  | .hbm, ⟨33, _⟩ => ⟨S_, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_call0_v0 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S8192x8192_S4096x8192_0_0 : S8192x8192.Slices ![0, 0] S4096x8192
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  reducesTo_S4096x8192_S4096_d1 : S4096x8192.ReducesTo [1] S4096
  h_S_ : 0 < S_.numel
  reducesTo_S4096_S_d0 : S4096.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KPieces.lean ====
/-
  What each control case of the kernel body leaves behind, as the body's payloads of what it read.

  The body carries two [2048, 1] columns between grid points: the accumulator (the running row sums) and the anchor–positive
  column. At the first column block of a row block it stores the anchor–positive column (payload 1 of the query and positive
  blocks) and the zero column (payload 2), and then, reading both back, the first accumulation step (payload 3); at the later
  column blocks it stores one more accumulation step over the two columns the point before left, and leaves the
  anchor–positive column as it found it; at the last column block it also stores log (1 + accumulator) (payload 4) into the
  output block.
-/
import proofs.«136708_j43035572306063_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KPieces

open Cert.KernelIdeal Cert.KernelIdeal.Gen

variable {F : FTy → Type} [FloatOps F]

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x2048 .i32) (harg5 : arg5.IsWhole)
  (arg6 : Memref sig .tc .vmem S2048x1 .f32) (harg6 : arg6.IsWhole) (arg7 : Memref sig .tc .vmem S2048x1 .f32) (harg7 : arg7.IsWhole)
  (arg8 : Memref sig .tc .vmem S2048x1 .f32) (harg8 : arg8.IsWhole)
  (x0 x1 x2 : Vec F S2048x256 .bf16) (x3 : Vec F S2048x2048 .i32) (xs0 xs1 : Vec F S2048x1 .f32)

theorem hz : (![0, 0] : Fin 2 → Nat) = fun _ => 0 := funext fun a => by fin_cases a <;> rfl

/-- First column block: the anchor–positive column left behind is payload 1 of the query and positive blocks. -/
theorem apcol_A (hc0 : cond0_0 i) (hc1 : ¬cond0_1 i) :
    sout0_A_1 c i arg2 harg2 arg3 harg3 arg4 harg4 arg5 harg5 arg6 harg6 arg7 harg7 arg8 harg8 hc0 hc1 x0 x1 x2 x3 = k0_pay1 x0 x2 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero hz]
  simp only [View.readCov_unit_zero (S := S2048x1) _ hz, View.readAt_eq_ld, harg2.read_unread, harg3.read_unread, harg4.read_unread, harg5.read_unread, harg7.read_unread, harg8.read_unread, View.ld_unit_zero (S := S2048x256) hz, View.ld_unit_zero (S := S2048x1) hz, View.ld_unit_zero (S := S2048x2048) hz]

/-- First column block: the accumulator left behind is one accumulation step from the zero column, with the anchor–positive
    column just stored. -/
theorem acc_A (hc0 : cond0_0 i) (hc1 : ¬cond0_1 i) :
    sout0_A_0 c i arg2 harg2 arg3 harg3 arg4 harg4 arg5 harg5 arg6 harg6 arg7 harg7 arg8 harg8 hc0 hc1 x0 x1 x2 x3 = k0_pay3 x0 x1 (k0_pay1 x0 x2) x3 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1) hz]
  simp only [View.readCov_unit_zero (S := S2048x1) _ hz, View.readAt_eq_ld, harg2.read_unread, harg3.read_unread, harg4.read_unread, harg5.read_unread, harg7.read_unread, harg8.read_unread, View.ld_unit_zero (S := S2048x256) hz, View.ld_unit_zero (S := S2048x1) hz, View.ld_unit_zero (S := S2048x2048) hz]

/-- A middle column block: one more accumulation step over the two columns the point before left. -/
theorem acc_B (hc0 : ¬cond0_0 i) (hc1 : ¬cond0_1 i) :
    sout0_B_0 c i arg2 harg2 arg3 harg3 arg4 harg4 arg5 harg5 arg6 harg6 arg7 harg7 arg8 harg8 hc0 hc1 x0 x1 x2 x3 xs0 xs1 = k0_pay3 x0 x1 xs1 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readCov_unit_zero (S := S2048x1) _ hz, View.readAt_eq_ld, harg2.read_unread, harg3.read_unread, harg4.read_unread, harg5.read_unread, harg7.read_unread, harg8.read_unread, View.ld_unit_zero (S := S2048x256) hz, View.ld_unit_zero (S := S2048x1) hz, View.ld_unit_zero (S := S2048x2048) hz]

/-- The last column block: the same accumulation step, -/
theorem acc_C (hc0 : ¬cond0_0 i) (hc1 : cond0_1 i) :
    sout0_C_0 c i arg2 harg2 arg3 harg3 arg4 harg4 arg5 harg5 arg6 harg6 arg7 harg7 arg8 harg8 hc0 hc1 x0 x1 x2 x3 xs0 xs1 = k0_pay3 x0 x1 xs1 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readCov_unit_zero (S := S2048x1) _ hz, View.readAt_eq_ld, harg2.read_unread, harg3.read_unread, harg4.read_unread, harg5.read_unread, harg7.read_unread, harg8.read_unread, View.ld_unit_zero (S := S2048x256) hz, View.ld_unit_zero (S := S2048x1) hz, View.ld_unit_zero (S := S2048x2048) hz]

/-- and the output block is log (1 + ·) of the accumulator just stored. -/
theorem out_C (hc0 : ¬cond0_0 i) (hc1 : cond0_1 i) :
    out0_C_4 c i arg2 harg2 arg3 harg3 arg4 harg4 arg5 harg5 arg6 harg6 arg7 harg7 arg8 harg8 hc0 hc1 x0 x1 x2 x3 xs0 xs1 = k0_pay4 (k0_pay3 x0 x1 xs1 x3 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readCov_unit_zero (S := S2048x1) _ hz, View.readAt_eq_ld, harg2.read_unread, harg3.read_unread, harg4.read_unread, harg5.read_unread, harg7.read_unread, harg8.read_unread, View.ld_unit_zero (S := S2048x256) hz, View.ld_unit_zero (S := S2048x1) hz, View.ld_unit_zero (S := S2048x2048) hz]

end Cert.KPieces

end
-- ==== Proof.Spec.lean ====
/-
  The specification: the one function of the argument arrays that both programs compute at the extended reals.

  With e the 8192 × 256 array of embeddings and mk the 8192 × 8192 array of mask bits, for each anchor row i < 4096:
  the similarity of rows a and b is dot a b = Σ_k e[a,k] · e[b,k]; the anchor–positive similarity is ap i = dot i (i + 4096);
  the row's term at column j is exp (dot i j − ap i) where the mask bit (i, j) is set and the zero word elsewhere; the row
  sum adds the terms over all 8192 columns; the loss is the sum over the rows of log (1 + row sum), divided by 4096.

  The one law the two programs differ by: the sum over the 8192 columns is the sum over four blocks of 2048 columns
  (commutativity and associativity of + alone, so it holds at the infinities too).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The embeddings, read at the extended reals. -/
abbrev Emb := (⟨2, ![8192, 256]⟩ : Shape).Idx → EReal
/-- The mask bits. -/
abbrev Msk := (⟨2, ![8192, 8192]⟩ : Shape).Idx → BitVec 1

/-- Anchor row i as a row of the whole array. -/
def lo (i : Fin 4096) : Fin 8192 := ⟨i.val, by have := i.isLt; omega⟩
/-- The positive row paired with anchor row i: row i + 4096. -/
def hi (i : Fin 4096) : Fin 8192 := ⟨i.val + 4096, by have := i.isLt; omega⟩

/-- The similarity of rows a and b. -/
def dot (e : Emb) (a b : Fin 8192) : EReal := ∑ k : Fin 256, e (ix2 a k) * e (ix2 b k)

/-- The anchor–positive similarity of anchor row i. -/
def ap (e : Emb) (i : Fin 4096) : EReal := dot e (lo i) (hi i)

/-- Row i's term at column j: exp (dot i j − ap i) where the mask bit is set, the zero word elsewhere. -/
def term (e : Emb) (mk : Msk) (i : Fin 4096) (j : Fin 8192) : EReal :=
  Scalar.select (mk (ix2 (lo i) j)) (Ideal.exp (dot e (lo i) j - ap e i)) (Ideal.ofBits .f32 0x00000000#32)

/-- Row i's sum over all columns. -/
def rowSum (e : Emb) (mk : Msk) (i : Fin 4096) : EReal := ∑ j : Fin 8192, term e mk i j

/-- The loss: the mean over the 4096 anchor rows of log (1 + row sum). -/
def loss (e : Emb) (mk : Msk) : EReal :=
  Ideal.div (∑ i : Fin 4096, Ideal.log1p (rowSum e mk i)) (Ideal.ofBits .f32 0x45800000#32)

/-! ## Columns in blocks of 2048 -/

/-- Column q of column block cb (reduced mod 8192 so that it is defined for every natural cb; for cb < 4 nothing is reduced). -/
def colN (cb : ℕ) (q : Fin 2048) : Fin 8192 := ⟨(2048 * cb + q.val) % 8192, Nat.mod_lt _ (by norm_num)⟩

theorem colN_val (cb : ℕ) (hcb : cb < 4) (q : Fin 2048) : (colN cb q).val = 2048 * cb + q.val := by
  have := q.isLt
  show (2048 * cb + q.val) % 8192 = _
  exact Nat.mod_eq_of_lt (by omega)

/-- A sum over the 8192 columns is the sum over the four column blocks of the sums over each block's 2048 columns. -/
theorem sum_blocks {M : Type*} [AddCommMonoid M] (f : Fin 8192 → M) :
    ∑ j, f j = ∑ cb ∈ Finset.range 4, ∑ q : Fin 2048, f (colN cb q) := by
  rw [Finset.sum_range (fun cb => ∑ q : Fin 2048, f (colN cb q)), ← Fintype.sum_prod_type']
  refine (Fintype.sum_equiv (finProdFinEquiv (m := 4) (n := 2048)) _ _ fun x => ?_).symm
  obtain ⟨a, b⟩ := x
  refine congrArg f (Fin.ext ?_)
  have ha := a.isLt
  rw [colN_val a.val ha b]
  show 2048 * a.val + b.val = b.val + 2048 * a.val
  omega

/-! ## Rows in blocks of 2048 -/

/-- Row p of row block r (reduced mod 4096 so that it is defined for every natural r; for r < 2 nothing is reduced). -/
def rowN (r : ℕ) (p : Fin 2048) : Fin 4096 := ⟨(2048 * r + p.val) % 4096, Nat.mod_lt _ (by norm_num)⟩

theorem rowN_val (r : ℕ) (hr : r < 2) (p : Fin 2048) : (rowN r p).val = 2048 * r + p.val := by
  have := p.isLt
  show (2048 * r + p.val) % 4096 = _
  exact Nat.mod_eq_of_lt (by omega)

/-- The sum of row i's terms over the columns of block cb. -/
def blockSum (e : Emb) (mk : Msk) (i : Fin 4096) (cb : ℕ) : EReal := ∑ q : Fin 2048, term e mk i (colN cb q)

/-- The row sum is the sum of the four block sums. -/
theorem rowSum_eq_blocks (e : Emb) (mk : Msk) (i : Fin 4096) :
    rowSum e mk i = ∑ cb ∈ Finset.range 4, blockSum e mk i cb :=
  sum_blocks (term e mk i)

end Cert.Spec

end
-- ==== Proof.KInputs.lean ====
/-
  What the kernel's region finds in its five arrays, and what each window's block holds at a grid point, in terms of the
  argument arrays.

  Before the region the host rounds the embeddings to the narrow format (the identity at the extended reals), cuts rows
  0..4095 (the anchor rows) and rows 4096..8191 (the positive rows) out of them, cuts rows 0..4095 out of the mask and
  widens its bits to words. At grid point t = 4 r + cb the query and positive windows hold row block r (rows 2048 r + p),
  the key window holds row block cb of all the embeddings (the columns 2048 cb + q of the similarity matrix), and the mask
  window holds the words at (2048 r + p, 2048 cb + q).
-/
import proofs.«136708_j43035572306063_1_alg».proof.Proof.Gen.KernelIdeal.Frame
import proofs.«136708_j43035572306063_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KInputs

open Cert.KernelIdeal Cert.KernelIdeal.Gen Cert.Spec

variable (m : (ℓ : Loc nD τ sig) → Buf (Elt Ideal) ℓ)

/-- The embeddings as launched, on core c. -/
abbrev emb (c : Dev nD) : Emb := m ((c : Thread nD τ).loc main_arg0)
/-- The mask bits as launched, on core c. -/
abbrev msk (c : Dev nD) : Msk := m ((c : Thread nD τ).loc main_arg2)

/-! ## The arrays as the region finds them -/

/-- The key window's array is the embeddings (the change of format is the identity at the extended reals). -/
theorem arr_keys (c : Dev nD) (j : S8192x256.Idx) : V m c main_v0 j = emb m c j := by
  show StableHlo.after hostOps0 (fun b => m (c, b)) (Proc.devRef .tc main_v0) j = _
  after_results
  rfl

/-- The query window's array is the anchor rows of the embeddings. -/
theorem arr_query (c : Dev nD) (i : Fin 4096) (k : Fin 256) : V m c main_v1 (ix2 i k) = emb m c (ix2 (lo i) k) := by
  show StableHlo.after hostOps0 (fun b => m (c, b)) (Proc.devRef .tc main_v1) (ix2 i k) = _
  after_results
  exact extractStridedSlice_apply ![0, 0] _ slices_S8192x256_S4096x256_0_0 (ix2 i k) (ix2 (lo i) k) (fun a => by
    match a with
    | ⟨0, _⟩ => show i.val = 0 + i.val; omega
    | ⟨1, _⟩ => show k.val = 0 + k.val; omega)

/-- The positive window's array is the positive rows of the embeddings. -/
theorem arr_pos (c : Dev nD) (i : Fin 4096) (k : Fin 256) : V m c main_v2 (ix2 i k) = emb m c (ix2 (hi i) k) := by
  show StableHlo.after hostOps0 (fun b => m (c, b)) (Proc.devRef .tc main_v2) (ix2 i k) = _
  after_results
  exact extractStridedSlice_apply ![4096, 0] _ slices_S8192x256_S4096x256_4096_0 (ix2 i k) (ix2 (hi i) k) (fun a => by
    match a with
    | ⟨0, _⟩ => show i.val + 4096 = 4096 + i.val; omega
    | ⟨1, _⟩ => show k.val = 0 + k.val; omega)

/-- The mask window's array is the anchor rows of the mask, each bit widened to a word. -/
theorem arr_mask (c : Dev nD) (i : Fin 4096) (j : Fin 8192) :
    V m c main_v4 (ix2 i j) = (msk m c (ix2 (lo i) j)).setWidth 32 := by
  show StableHlo.after hostOps0 (fun b => m (c, b)) (Proc.devRef .tc main_v4) (ix2 i j) = _
  after_results
  exact congrArg (BitVec.setWidth 32) (extractStridedSlice_apply ![0, 0] _ slices_S8192x8192_S4096x8192_0_0 (ix2 i j) (ix2 (lo i) j) (fun a => by
    match a with
    | ⟨0, _⟩ => show i.val = 0 + i.val; omega
    | ⟨1, _⟩ => show j.val = 0 + j.val; omega))

/-! ## The windows' blocks -/

/-- Where each window's block sits at grid point t = 4 r + cb: the printed index maps, decided once over the eight points. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = t.val % 4
    ∧ win0_4.index t (0 : Fin 2) = t.val / 4 ∧ win0_4.index t (1 : Fin 2) = 0 :=
  (by decide +kernel : ∀ t : Fin grid0.N, _)

theorem lt8 (t : Fin cfg0.N) : t.val < 8 := lt_of_lt_of_eq t.isLt (show cfg0.N = 8 from N_0)

/-- The query window's block at point t: rows 2048 (t / 4) + p of the anchor rows. -/
theorem blk_query (c : Dev nD) (t : Fin cfg0.N) (p : Fin 2048) (k : Fin 256) :
    (iblk m c 0 t : Vec Ideal S2048x256 .bf16) (ix2 p k) = emb m c (ix2 (lo (rowN (t.val / 4) p)) k) := by
  have ht := lt8 t
  rw [← arr_query]
  unfold iblk
  rw [View.read_apply]
  show V m c main_v1 _ = V m c main_v1 _
  refine congrArg (V m c main_v1) (funext fun a => Fin.ext ?_)
  match a with
  | ⟨0, _⟩ =>
    show win0_0.index t 0 * 2048 + 1 * p.val = (rowN (t.val / 4) p).val
    rw [(idx_facts t).1, rowN_val _ (by omega)]; omega
  | ⟨1, _⟩ =>
    show win0_0.index t 1 * 256 + 1 * k.val = k.val
    rw [(idx_facts t).2.1]; omega

/-- The positive window's block at point t: the positive rows paired with those anchor rows. -/
theorem blk_pos (c : Dev nD) (t : Fin cfg0.N) (p : Fin 2048) (k : Fin 256) :
    (iblk m c 2 t : Vec Ideal S2048x256 .bf16) (ix2 p k) = emb m c (ix2 (hi (rowN (t.val / 4) p)) k) := by
  have ht := lt8 t
  rw [← arr_pos]
  unfold iblk
  rw [View.read_apply]
  show V m c main_v2 _ = V m c main_v2 _
  refine congrArg (V m c main_v2) (funext fun a => Fin.ext ?_)
  match a with
  | ⟨0, _⟩ =>
    show win0_2.index t 0 * 2048 + 1 * p.val = (rowN (t.val / 4) p).val
    rw [(idx_facts t).2.2.2.2.1, rowN_val _ (by omega)]; omega
  | ⟨1, _⟩ =>
    show win0_2.index t 1 * 256 + 1 * k.val = k.val
    rw [(idx_facts t).2.2.2.2.2.1]; omega

/-- The key window's block at point t: rows 2048 (t % 4) + q of all the embeddings. -/
theorem blk_keys (c : Dev nD) (t : Fin cfg0.N) (q : Fin 2048) (k : Fin 256) :
    (iblk m c 1 t : Vec Ideal S2048x256 .bf16) (ix2 q k) = emb m c (ix2 (colN (t.val % 4) q) k) := by
  have ht := lt8 t
  rw [← arr_keys]
  unfold iblk
  rw [View.read_apply]
  show V m c main_v0 _ = V m c main_v0 _
  refine congrArg (V m c main_v0) (funext fun a => Fin.ext ?_)
  match a with
  | ⟨0, _⟩ =>
    show win0_1.index t 0 * 2048 + 1 * q.val = (colN (t.val % 4) q).val
    rw [(idx_facts t).2.2.1, colN_val _ (by omega)]; omega
  | ⟨1, _⟩ =>
    show win0_1.index t 1 * 256 + 1 * k.val = k.val
    rw [(idx_facts t).2.2.2.1]; omega

/-- The mask window's block at point t: the words at (2048 (t / 4) + p, 2048 (t % 4) + q). -/
theorem blk_mask (c : Dev nD) (t : Fin cfg0.N) (p q : Fin 2048) :
    (iblk m c 3 t : Vec Ideal S2048x2048 .i32) (ix2 p q)
      = (msk m c (ix2 (lo (rowN (t.val / 4) p)) (colN (t.val % 4) q))).setWidth 32 := by
  have ht := lt8 t
  rw [← arr_mask]
  unfold iblk
  rw [View.read_apply]
  show V m c main_v4 _ = V m c main_v4 _
  refine congrArg (V m c main_v4) (funext fun a => Fin.ext ?_)
  match a with
  | ⟨0, _⟩ =>
    show win0_3.index t 0 * 2048 + 1 * p.val = (rowN (t.val / 4) p).val
    rw [(idx_facts t).2.2.2.2.2.2.1, rowN_val _ (by omega)]; omega
  | ⟨1, _⟩ =>
    show win0_3.index t 1 * 2048 + 1 * q.val = (colN (t.val % 4) q).val
    rw [(idx_facts t).2.2.2.2.2.2.2.1, colN_val _ (by omega)]; omega

end Cert.KInputs

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.KPayload.lean ====
/-
  The kernel body's four pure values, each read at one entry (p, u) of its [2048, 1] column, at the ideal values.

  * the anchor-positive column: entry p is the sum over the 256 lanes of the products of row p of the two blocks;
  * the zero column: every entry is 0;
  * one accumulation step: entry p is the accumulator's entry plus the sum over the 2048 key rows q of
    exp(<query row p, key row q> - ap p) where the mask word at (p, q) is not zero, and of 0 elsewhere;
  * the closing step: entry p is log1p of the accumulator's entry.

  Every layout operation in between (a cast to the same shape, the cast [2048] -> [2048, 1], the spread of an
  [2048, 1] column along the rows of a [2048, 2048] array) moves no value: it is read through at the index.
  A sum along axis 1 read at row p is the sum over the lane coordinate, and the matrix product contracting axis 1
  of both operands read at (p, q) is the sum over the shared coordinate k of the products of (p, k) and (q, k).
-/
import proofs.«136708_j43035572306063_1_alg».proof.Proof.Gen.KernelIdeal.Skeleton
import proofs.«136708_j43035572306063_1_alg».proof.Proof.LibKeptColumn
import Idealize.ShloMosaic.PureOps.Ideal.Laws
import Idealize.ShloMosaic.Lib.ValueIdx
import Idealize.ShloMosaic.Lib.Pipeline.Value

noncomputable section

namespace Cert.KPayload

open Cert.KernelIdeal Cert.KernelIdeal.Gen Idealize.ShloMosaic Idealize.ShloMosaic.ValueIdx
open scoped BigOperators

/-! ## A sum along axis 1, read at a row -/

/-- The sum over axis 1 of a [2048, n] array, read at row p: the sum over the lane coordinate k of the entries (p, k).
    The index the reduction inserts the coordinate k into, over row p, is (p, k). -/
theorem laneSum_apply {n : ℕ} (src : FVec Ideal ⟨2, ![2048, n]⟩ .f32)
    (h : (⟨2, ![2048, n]⟩ : Shape).Reduces [1] ⟨1, ![2048]⟩) (hφ : FKind.Formats .f32)
    (hacc : (0x00000000#32 : BitVec 32) = 0x00000000#32) (p : Fin 2048) :
    multiReduction .add [1] ⟨1, ![2048]⟩ src 0x00000000#32 h hφ hacc (ix1 p) = ∑ k : Fin n, src (ix2 p k) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-! ## The matrix product contracting axis 1 of both operands, read at (p, q) -/

/-- The left operand's index at result index j: its row coordinate is j's first coordinate (axis 0 is the left
    operand's one free axis). -/
theorem lhs_row (j : S2048x2048.Idx) (c : dot_S2048x256_S2048x256_S2048x2048_1_1_0_0_n_n.contr.Idx) :
    (dot_S2048x256_S2048x256_S2048x2048_1_1_0_0_n_n.lhsIdx j c 0).val = (j 0).val := by
  unfold DotDims.lhsIdx
  rw [dif_neg (show ¬(0 : Fin S2048x256.rank) ∈ dot_S2048x256_S2048x256_S2048x2048_1_1_0_0_n_n.lhsBatch by decide),
    dif_pos (show (0 : Fin S2048x256.rank) ∈ dot_S2048x256_S2048x256_S2048x2048_1_1_0_0_n_n.lhsNonContracting by decide)]
  rfl

/-- The right operand's index at result index j: its row coordinate is j's second coordinate (axis 0 is the right
    operand's one free axis, and it comes after the left operand's in the result). -/
theorem rhs_row (j : S2048x2048.Idx) (c : dot_S2048x256_S2048x256_S2048x2048_1_1_0_0_n_n.contr.Idx) :
    (dot_S2048x256_S2048x256_S2048x2048_1_1_0_0_n_n.rhsIdx j c 0).val = (j 1).val := by
  unfold DotDims.rhsIdx
  rw [dif_neg (show ¬(0 : Fin S2048x256.rank) ∈ dot_S2048x256_S2048x256_S2048x2048_1_1_0_0_n_n.rhsBatch by decide),
    dif_pos (show (0 : Fin S2048x256.rank) ∈ dot_S2048x256_S2048x256_S2048x2048_1_1_0_0_n_n.rhsNonContracting by decide)]
  rfl

/-- The product into the zero array, read at (p, q): the sum over the shared lane coordinate k of the left operand at
    (p, k) times the right operand at (q, k). The contraction has one axis, of extent 256, so its index is that one
    coordinate; both operands read it on their axis 1. -/
theorem rowProduct_apply (a b : FVec Ideal S2048x256 .bf16) (p q : Fin 2048) :
    matmul dot_S2048x256_S2048x256_S2048x2048_1_1_0_0_n_n none a b (constant S2048x2048 .f32 0x00000000#32) (ix2 p q)
      = ∑ k : Fin 256, a (ix2 p k) * b (ix2 q k) := by
  refine (Ideal.matmul_constant_zero_apply dot_S2048x256_S2048x256_S2048x2048_1_1_0_0_n_n none a b (ix2 p q)).trans ?_
  rw [← Equiv.sum_comp (ValueIdx.contrEquiv1 dot_S2048x256_S2048x256_S2048x2048_1_1_0_0_n_n 256 rfl rfl).symm]
  refine Finset.sum_congr rfl fun k _ => ?_
  have hk := ValueIdx.contrEquiv1_symm_val dot_S2048x256_S2048x256_S2048x2048_1_1_0_0_n_n 256 rfl rfl k
  have el : dot_S2048x256_S2048x256_S2048x2048_1_1_0_0_n_n.lhsIdx (ix2 p q)
      ((ValueIdx.contrEquiv1 dot_S2048x256_S2048x256_S2048x2048_1_1_0_0_n_n 256 rfl rfl).symm k) = ix2 p k :=
    funext fun c => Fin.ext (by
      match c with
      | ⟨0, _⟩ => exact lhs_row _ _
      | ⟨1, _⟩ => exact (dot_S2048x256_S2048x256_S2048x2048_1_1_0_0_n_n.lhsIdx_val_of_single rfl _ _).trans hk)
  have er : dot_S2048x256_S2048x256_S2048x2048_1_1_0_0_n_n.rhsIdx (ix2 p q)
      ((ValueIdx.contrEquiv1 dot_S2048x256_S2048x256_S2048x2048_1_1_0_0_n_n 256 rfl rfl).symm k) = ix2 q k :=
    funext fun c => Fin.ext (by
      match c with
      | ⟨0, _⟩ => exact rhs_row _ _
      | ⟨1, _⟩ => exact (dot_S2048x256_S2048x256_S2048x2048_1_1_0_0_n_n.rhsIdx_val_of_single rfl _ _).trans hk)
  rw [el, er]

/-! ## The four values at an entry -/

/-- The anchor-positive column at entry p: the sum over the lanes of the products of row p of the two blocks (the
    widening of each factor changes no value). -/
theorem pay1_apply (x0 x2 : Vec Ideal S2048x256 .bf16) (p : Fin 2048) (u : Fin 1) :
    k0_pay1 (F := Ideal) x0 x2 (ix2 p u) = ∑ k : Fin 256, x0 (ix2 p k) * x2 (ix2 p k) := by
  unfold k0_pay1
  refine (congrFun (shapeCast_self _ _) _).trans ?_
  refine (KeptColumn.shapeCast_a_a1_apply _ _ p u).trans ?_
  refine (laneSum_apply _ _ _ _ p).trans ?_
  refine Finset.sum_congr rfl fun k _ => ?_
  exact congrArg₂ (· * ·) (congrFun (shapeCast_self x0 _) _) (congrFun (shapeCast_self x2 _) _)

/-- The zero column at any entry: 0. -/
theorem pay2_apply (p : Fin 2048) (u : Fin 1) :
    k0_pay2 (F := Ideal) (ix2 p u) = 0 := by
  unfold k0_pay2
  refine (congrFun (shapeCast_self _ _) _).trans ?_
  exact Ideal.ofBits_zero_f32

/-- One accumulation step at entry p: the accumulator's entry plus the sum over the key rows q of the masked
    exponential of the row product less the anchor-positive entry of row p. -/
theorem pay3_apply (x0 x1 : Vec Ideal S2048x256 .bf16) (apc : Vec Ideal S2048x1 .f32) (x3 : Vec Ideal S2048x2048 .i32)
    (acc : Vec Ideal S2048x1 .f32) (p : Fin 2048) (u : Fin 1) :
    k0_pay3 (F := Ideal) x0 x1 apc x3 acc (ix2 p u)
      = acc (ix2 p u) + ∑ q : Fin 2048, Scalar.select (IntOp.cmpi .ne (x3 (ix2 p q)) 0#32)
          (Ideal.exp ((∑ k : Fin 256, x0 (ix2 p k) * x1 (ix2 q k)) - apc (ix2 p (0 : Fin 1)))) (Ideal.ofBits .f32 0x00000000#32) := by
  unfold k0_pay3
  refine (congrFun (shapeCast_self _ _) _).trans ?_
  refine (addf_apply _ _ _).trans ?_
  refine congrArg (acc (ix2 p u) + ·) ?_
  refine (KeptColumn.shapeCast_a_a1_apply _ _ p u).trans ?_
  refine (laneSum_apply _ _ _ _ p).trans ?_
  refine Finset.sum_congr rfl fun q _ => ?_
  refine (select_apply _ _ _ _).trans ?_
  refine congrArg₂ (fun c e => Scalar.select c e (Ideal.ofBits .f32 0x00000000#32)) ?_ ?_
  · -- the mask bit: the comparison of the word at (p, q) with the zero word
    exact congrArg (fun w => IntOp.cmpi .ne w 0#32) (congrFun (shapeCast_self x3 _) _)
  · -- the exponential of the row product less the spread column
    refine congrArg Ideal.exp ?_
    refine (subf_apply _ _ _).trans ?_
    refine congrArg₂ (· - ·) ?_ ?_
    · refine (rowProduct_apply _ _ p q).trans ?_
      refine Finset.sum_congr rfl fun k _ => ?_
      exact congrArg₂ (· * ·) (congrFun (shapeCast_self x0 _) _) (congrFun (shapeCast_self x1 _) _)
    · exact KeptColumn.broadcastTo_a1_ab_apply apc _ p q

/-- The closing step at entry p: log1p of the accumulator's entry. -/
theorem pay4_apply (acc : Vec Ideal S2048x1 .f32) (p : Fin 2048) (u : Fin 1) :
    k0_pay4 (F := Ideal) acc (ix2 p u) = Ideal.log1p (acc (ix2 p u)) := rfl

end Cert.KPayload

end
-- ==== Proof.KStep.lean ====
/-
  The body's two non-trivial payloads in the specification's terms.

  If, in row p of the blocks a grid point sees, the query block holds anchor row i of the embeddings, the positive block
  the positive row paired with it, the key block the rows that are the columns of column block cb, and the mask block the
  widened mask bits of row i at those columns, then payload 1 at row p is the anchor–positive similarity of row i, and
  payload 3 at row p adds to the accumulator the sum of row i's terms over column block cb.
-/
import proofs.«136708_j43035572306063_1_alg».proof.Proof.KPayload
import proofs.«136708_j43035572306063_1_alg».proof.Proof.Spec

noncomputable section

open scoped BigOperators
open Idealize.ShloMosaic Idealize.ShloMosaic.ValueIdx

namespace Cert.KStep

open Cert.KernelIdeal Cert.KernelIdeal.Gen Cert.Spec

/-- A mask bit widened to a word is different from the zero word exactly when the bit is set. -/
theorem ne_zero_widen (b : BitVec 1) : IntOp.cmpi .ne (b.setWidth 32) 0#32 = b := by
  rcases BitVec.eq_zero_or_eq_one b with h | h <;> subst h <;> decide

/-- Payload 1 at row p: the anchor–positive similarity of the anchor row that row p of the blocks holds. -/
theorem apcol_val (x0 x2 : Vec Ideal S2048x256 .bf16) (e : Emb) (i : Fin 4096) (p : Fin 2048) (u : Fin 1)
    (h0 : ∀ k : Fin 256, x0 (ix2 p k) = e (ix2 (lo i) k)) (h2 : ∀ k : Fin 256, x2 (ix2 p k) = e (ix2 (hi i) k)) :
    k0_pay1 (F := Ideal) x0 x2 (ix2 p u) = ap e i := by
  refine (Cert.KPayload.pay1_apply x0 x2 p u).trans ?_
  show (∑ k : Fin 256, x0 (ix2 p k) * x2 (ix2 p k)) = ∑ k : Fin 256, e (ix2 (lo i) k) * e (ix2 (hi i) k)
  exact Finset.sum_congr rfl fun k _ => by rw [h0 k, h2 k]

/-- Payload 3 at row p: the accumulator's entry plus the sum of row i's terms over column block cb. -/
theorem step_val (x0 x1 : Vec Ideal S2048x256 .bf16) (apc : Vec Ideal S2048x1 .f32) (x3 : Vec Ideal S2048x2048 .i32)
    (acc : Vec Ideal S2048x1 .f32) (e : Emb) (mk : Msk) (i : Fin 4096) (cb : ℕ) (p : Fin 2048) (u : Fin 1)
    (h0 : ∀ k : Fin 256, x0 (ix2 p k) = e (ix2 (lo i) k))
    (h1 : ∀ (q : Fin 2048) (k : Fin 256), x1 (ix2 q k) = e (ix2 (colN cb q) k))
    (h3 : ∀ q : Fin 2048, x3 (ix2 p q) = (mk (ix2 (lo i) (colN cb q))).setWidth 32)
    (hap : apc (ix2 p (0 : Fin 1)) = ap e i) :
    k0_pay3 (F := Ideal) x0 x1 apc x3 acc (ix2 p u) = acc (ix2 p u) + blockSum e mk i cb := by
  refine (Cert.KPayload.pay3_apply x0 x1 apc x3 acc p u).trans ?_
  refine congrArg (acc (ix2 p u) + ·) (Finset.sum_congr rfl fun q _ => ?_)
  rw [h3 q, ne_zero_widen, hap]
  have hd : (∑ k : Fin 256, x0 (ix2 p k) * x1 (ix2 q k)) = dot e (lo i) (colN cb q) := by
    show _ = ∑ k : Fin 256, e (ix2 (lo i) k) * e (ix2 (colN cb q) k)
    exact Finset.sum_congr rfl fun k _ => by rw [h0 k, h1 q k]
  rw [hd]
  rfl

end Cert.KStep

end
-- ==== Proof.KInvariant.lean ====
/-
  What the kernel carries from grid point to grid point.

  At grid point t = 4 r + cb (row block r, column block cb) the body leaves, in row p of its two carried columns: the
  anchor–positive similarity of anchor row i = 2048 r + p, and the sum of row i's terms over the column blocks 0, …, cb.
  By induction on the point: at cb = 0 both columns are stored afresh (the accumulator is one step from the zero column);
  at cb > 0 the anchor–positive column is the one the point before left (same row block) and the accumulator gains column
  block cb. At cb = 3 the output block is log (1 + accumulator).
-/
import proofs.«136708_j43035572306063_1_alg».proof.Proof.KPieces
import proofs.«136708_j43035572306063_1_alg».proof.Proof.KInputs
import proofs.«136708_j43035572306063_1_alg».proof.Proof.KStep

set_option maxRecDepth 16384

noncomputable section

open scoped BigOperators
open Idealize.ShloMosaic Idealize.ShloMosaic.TcCoe Idealize.SL.Sem Idealize.ShloMosaic.ValueIdx

namespace Cert.KInvariant

open Cert.KernelIdeal Cert.KernelIdeal.Gen Cert.Spec Cert.KInputs

/-! ## The three cases, as payloads of the blocks -/

section Cases

variable {F : FTy → Type} [FloatOps F]
variable (m : (ℓ : Loc nD τ sig) → Buf (Elt F) ℓ)

theorem pred_lt (t : Fin cfg0.N) : t.val - 1 < cfg0.N := Nat.lt_of_le_of_lt (Nat.sub_le _ _) t.isLt

/-- At the first column block of a row block both carried columns are stored afresh. -/
theorem at_A (c : Dev nD) (t : Fin cfg0.N) (h0 : t.val % 4 = 0) :
    (outsAt0 m c t.val t.isLt).2.2 = k0_pay1 (iblk m c 0 t) (iblk m c 2 t)
    ∧ (outsAt0 m c t.val t.isLt).2.1
        = k0_pay3 (iblk m c 0 t) (iblk m c 1 t) (k0_pay1 (iblk m c 0 t) (iblk m c 2 t)) (iblk m c 3 t) (k0_pay2 (F := F)) := by
  have h1 : ¬t.val % 4 = 3 := by omega
  have hA := Cert.KPieces.apcol_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))
  have hB := Cert.KPieces.acc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) ((hcond0_0 t).mpr h0) (fun h => h1 ((hcond0_1 t).mp h))
  rw [outsAt0_A m c t h0 h1]
  dsimp only
  exact ⟨hA, hB⟩

/-- At a later column block the anchor–positive column is kept and the accumulator takes one more step. -/
theorem at_BC (c : Dev nD) (t : Fin cfg0.N) (h0 : ¬t.val % 4 = 0) :
    (outsAt0 m c t.val t.isLt).2.2 = (outsAt0 m c (t.val - 1) (pred_lt t)).2.2
    ∧ (outsAt0 m c t.val t.isLt).2.1
        = k0_pay3 (iblk m c 0 t) (iblk m c 1 t) (outsAt0 m c (t.val - 1) (pred_lt t)).2.2 (iblk m c 3 t)
            (outsAt0 m c (t.val - 1) (pred_lt t)).2.1 := by
  by_cases h1 : t.val % 4 = 3
  · have hC := Cert.KPieces.acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2
      (fun h => h0 ((hcond0_0 t).mp h)) ((hcond0_1 t).mpr h1)
    rw [outsAt0_C m c t h0 h1]
    dsimp only
    exact ⟨rfl, hC⟩
  · have hB := Cert.KPieces.acc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2
      (fun h => h0 ((hcond0_0 t).mp h)) (fun h => h1 ((hcond0_1 t).mp h))
    rw [outsAt0_B m c t h0 h1]
    dsimp only
    exact ⟨rfl, hB⟩

/-- At the last column block the output block is payload 4 of the accumulator just stored. -/
theorem at_C_out (c : Dev nD) (t : Fin cfg0.N) (h1 : t.val % 4 = 3) :
    (outsAt0 m c t.val t.isLt).1 = k0_pay4 (outsAt0 m c t.val t.isLt).2.1 := by
  have h0 : ¬t.val % 4 = 0 := by omega
  have hO := Cert.KPieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2
      (fun h => h0 ((hcond0_0 t).mp h)) ((hcond0_1 t).mpr h1)
  have hC := Cert.KPieces.acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (outsAt0 m c (t.val - 1) (pred_lt t)).2.1 (outsAt0 m c (t.val - 1) (pred_lt t)).2.2
      (fun h => h0 ((hcond0_0 t).mp h)) ((hcond0_1 t).mpr h1)
  rw [outsAt0_C m c t h0 h1]
  dsimp only
  rw [hO, hC]

end Cases

/-! ## The invariant, at the extended reals -/

variable (m : (ℓ : Loc nD τ sig) → Buf (Elt Ideal) ℓ)

/-- What the two carried columns hold after point n, row by row. -/
def Carried (c : Dev nD) (n : ℕ) (h : n < cfg0.N) : Prop :=
  ∀ (p : Fin 2048) (u : Fin 1),
    (outsAt0 m c n h).2.2 (ix2 p u) = ap (emb m c) (rowN (n / 4) p)
    ∧ (outsAt0 m c n h).2.1 (ix2 p u)
        = ∑ cb ∈ Finset.range (n % 4 + 1), blockSum (emb m c) (msk m c) (rowN (n / 4) p) cb

theorem carried_A (c : Dev nD) (t : Fin cfg0.N) (h0 : t.val % 4 = 0) : Carried m c t.val t.isLt := by
  intro p u
  obtain ⟨e1, e0⟩ := at_A m c t h0
  have hap : ∀ u' : Fin 1, k0_pay1 (F := Ideal) (iblk m c 0 t) (iblk m c 2 t) (ix2 p u') = ap (emb m c) (rowN (t.val / 4) p) :=
    fun u' => Cert.KStep.apcol_val (iblk m c 0 t) (iblk m c 2 t) (emb m c) (rowN (t.val / 4) p) p u'
      (fun k => blk_query m c t p k) (fun k => blk_pos m c t p k)
  refine ⟨(congrFun e1 (ix2 p u)).trans (hap u), (congrFun e0 (ix2 p u)).trans ?_⟩
  refine (Cert.KStep.step_val (iblk m c 0 t) (iblk m c 1 t) (k0_pay1 (iblk m c 0 t) (iblk m c 2 t)) (iblk m c 3 t) (k0_pay2 (F := Ideal))
    (emb m c) (msk m c) (rowN (t.val / 4) p) (t.val % 4) p u
    (fun k => blk_query m c t p k) (fun q k => blk_keys m c t q k) (fun q => blk_mask m c t p q) (hap 0)).trans ?_
  rw [Cert.KPayload.pay2_apply, h0]
  simp only [zero_add, Finset.sum_range_one]

theorem carried_step (c : Dev nD) (t : Fin cfg0.N) (h0 : ¬t.val % 4 = 0)
    (ih : Carried m c (t.val - 1) (pred_lt t)) : Carried m c t.val t.isLt := by
  intro p u
  have ht := lt8 t
  obtain ⟨e1, e0⟩ := at_BC m c t h0
  have hrow : (t.val - 1) / 4 = t.val / 4 := by omega
  have hcol : t.val % 4 = (t.val - 1) % 4 + 1 := by omega
  have hap : ∀ u' : Fin 1, (outsAt0 m c (t.val - 1) (pred_lt t)).2.2 (ix2 p u') = ap (emb m c) (rowN (t.val / 4) p) :=
    fun u' => by rw [← hrow]; exact (ih p u').1
  refine ⟨(congrFun e1 (ix2 p u)).trans (hap u), (congrFun e0 (ix2 p u)).trans ?_⟩
  refine (Cert.KStep.step_val (iblk m c 0 t) (iblk m c 1 t) (outsAt0 m c (t.val - 1) (pred_lt t)).2.2 (iblk m c 3 t)
    (outsAt0 m c (t.val - 1) (pred_lt t)).2.1
    (emb m c) (msk m c) (rowN (t.val / 4) p) (t.val % 4) p u
    (fun k => blk_query m c t p k) (fun q k => blk_keys m c t q k) (fun q => blk_mask m c t p q) (hap 0)).trans ?_
  rw [(ih p u).2, hrow, hcol]
  exact (Finset.sum_range_succ _ _).symm

/-- After every grid point the two carried columns hold the anchor–positive similarities and the partial row sums. -/
theorem carried (c : Dev nD) : ∀ (n : ℕ) (h : n < cfg0.N), Carried m c n h
  | 0, h => carried_A m c ⟨0, h⟩ rfl
  | n + 1, h => by
    by_cases h0 : (n + 1) % 4 = 0
    · exact carried_A m c ⟨n + 1, h⟩ h0
    · exact carried_step m c ⟨n + 1, h⟩ h0 (carried c n (Nat.lt_of_succ_lt h))

/-- At the last column block of row block r the output block holds, in row p, log (1 + the whole row sum) of anchor row
    2048 r + p. -/
theorem out_val (c : Dev nD) (t : Fin cfg0.N) (h1 : t.val % 4 = 3) (p : Fin 2048) (u : Fin 1) :
    (outsAt0 m c t.val t.isLt).1 (ix2 p u) = Ideal.log1p (rowSum (emb m c) (msk m c) (rowN (t.val / 4) p)) := by
  rw [at_C_out m c t h1, Cert.KPayload.pay4_apply, (carried m c t.val t.isLt p u).2, h1, rowSum_eq_blocks]

end Cert.KInvariant

end
-- ==== Proof.KTail.lean ====
/-
  The host tail after the region, read at the extended reals: the total sum of the [4096, 1] output array, started from
  the zero word, divided by the word of 4096.

  The result has no axes, so the sum into it runs over every entry of the output: the zero word is 0, and a sum over the
  entries (i, u) of a [4096, 1] array is the sum over the rows i of the one entry (i, 0). Where the output's entry of row
  i is log (1 + row sum i), the quotient is therefore the specification's loss: the same sum over the 4096 rows,
  divided by the same word.
-/
import proofs.«136708_j43035572306063_1_alg».proof.Proof.Gen.KernelIdeal.Skeleton
import proofs.«136708_j43035572306063_1_alg».proof.Proof.Spec
import Idealize.ShloMosaic.PureOps.Ideal.Laws
import Idealize.ShloMosaic.Lib.ValueIdx

noncomputable section

namespace Cert.KTail

open Cert.KernelIdeal Cert.KernelIdeal.Gen Idealize.ShloMosaic Idealize.ShloMosaic.ValueIdx
open scoped BigOperators

/-- The tail's value at its one index is the loss, when the output column holds log (1 + row sum) in every row. -/
theorem tail_val (out : (⟨S4096x1, .f32⟩ : BufTy).Contents (Elt Ideal)) (e : Cert.Spec.Emb) (mk : Cert.Spec.Msk)
    (hout : ∀ (i : Fin 4096) (u : Fin 1), out (ix2 i u) = Ideal.log1p (Cert.Spec.rowSum e mk i)) :
    Host.divf (F := Ideal) (Host.reduceAdd (F := Ideal) out (constant (F := Ideal) S_ .f32 0x00000000#32) reducesTo_S4096x1_S_d0_1 h_S_)
        (constant (F := Ideal) S_ .f32 0x45800000#32)
      = fun _ => Cert.Spec.loss e mk := by
  funext j
  -- both sides are a quotient by the same word: the numerators are to be compared
  show Ideal.div (Ideal.hostReduceAdd reducesTo_S4096x1_S_d0_1 out (Ideal.ofBits .f32 0x00000000#32) j) (Ideal.ofBits .f32 0x45800000#32)
      = Ideal.div (∑ i : Fin 4096, Ideal.log1p (Cert.Spec.rowSum e mk i)) (Ideal.ofBits .f32 0x45800000#32)
  refine congrArg (Ideal.div · (Ideal.ofBits .f32 0x45800000#32)) ?_
  -- a sum into the shape with no axes is the initial value plus the sum over every entry
  refine (Ideal.hostReduceAdd_total reducesTo_S4096x1_S_d0_1 (fun b => b.elim0) out _ j).trans ?_
  rw [Ideal.ofBits_zero_f32, zero_add]
  -- the entries of a [4096, 1] array by rows; each row has the one entry (i, 0)
  refine (sum_idx2 out).trans ?_
  refine Finset.sum_congr rfl fun i _ => ?_
  exact (Fin.sum_univ_one _).trans (hout i 0)

end Cert.KTail

end
-- ==== Proof.KFinal.lean ====
/-
  The kernel program's result.

  The output window's array has two blocks of 2048 rows; block r is written back once, at the last column block of row
  block r, when it holds log (1 + row sum) of the anchor rows 2048 r + p. The two write-backs cover the array, so after
  the region row i of the output array holds log (1 + row sum of anchor row i); the host lines after the region sum the
  4096 rows and divide by 4096: the specification's loss.
-/
import proofs.«136708_j43035572306063_1_alg».proof.Proof.KInvariant
import proofs.«136708_j43035572306063_1_alg».proof.Proof.KTail
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KFinal

open Cert.KernelIdeal Cert.KernelIdeal.Gen Cert.Spec Cert.KInputs

variable (m : (ℓ : Loc nD τ sig) → Buf (Elt Ideal) ℓ) (ρ : Dev nD → PrngReg)

/-- The output array after the region: row i holds log (1 + row sum of anchor row i). -/
def outArr (c : Dev nD) : S4096x1.Idx → EReal :=
  fun j => Ideal.log1p (rowSum (emb m c) (msk m c) ⟨(j 0).val, idx2_lt0 j⟩)

theorem outArr_apply (c : Dev nD) (i : Fin 4096) (u : Fin 1) :
    outArr m c (ix2 i u) = Ideal.log1p (rowSum (emb m c) (msk m c) i) := rfl

/-- What a flushing point writes back is its block of the output array. -/
theorem flushed_eq (c : Dev nD) (t : Fin cfg0.N) (hf : (cfg0.win 4).flush t = true) :
    (dats m 0 c).flushed 4 t = ((cfg0.win 4).blk t).view.read (Elt Ideal) (outArr m c) := by
  have h3 : t.val % 4 = 3 := (flush0_4 t).mp hf
  have ht := lt8 t
  show (cfg0.win 4).cut (grid0.coords t) ((dats m 0 c).after 4 t) = _
  rw [after0_4]
  funext y
  obtain ⟨p, u, rfl⟩ : ∃ (p : Fin 2048) (u : Fin 1), y = ix2 p u := ⟨y 0, y 1, eq_ix2 y⟩
  show (outsAt0 m c t.val t.isLt).1 (ix2 p u) = outArr m c (((cfg0.win 4).blk t).view.emb (ix2 p u))
  rw [Cert.KInvariant.out_val m c t h3 p u]
  refine congrArg (fun i => Ideal.log1p (rowSum (emb m c) (msk m c) i)) (Fin.ext ?_)
  show (rowN (t.val / 4) p).val = win0_4.index t (0 : Fin 2) * 2048 + 1 * p.val
  rw [(idx_facts t).2.2.2.2.2.2.2.2.1, rowN_val _ (by omega)]; omega

/-- An index of the output array is in point t's block iff each coordinate is in the block's range on its axis. -/
theorem mem_blk (t : Fin cfg0.N) (i : S4096x1.Idx) :
    i ∈ ((cfg0.win 4).blk t).view.set
      ↔ ∀ a : Fin 2, win0_4.index t a * S2048x1.size a ≤ (i a).val ∧ (i a).val < win0_4.index t a * S2048x1.size a + S2048x1.size a := by
  show i ∈ ((View.whole main_v5).slice (win0_4.rect t)).set ↔ _
  rw [View.set_slice_whole, Rect.mem_set_unit]
  exact Iff.rfl

/-- Row i of the output array is written back at the last column block of row block i / 2048. -/
theorem cover (i : S4096x1.Idx) : ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 8 := N_0
  have hlt : 4 * ((i 0).val / 2048) + 3 < cfg0.N := by rw [hN]; omega
  have e := idx_facts ⟨4 * ((i 0).val / 2048) + 3, hlt⟩
  have e0 : win0_4.index ⟨4 * ((i 0).val / 2048) + 3, hlt⟩ (0 : Fin 2) = (4 * ((i 0).val / 2048) + 3) / 4 := e.2.2.2.2.2.2.2.2.1
  have e1 : win0_4.index ⟨4 * ((i 0).val / 2048) + 3, hlt⟩ (1 : Fin 2) = 0 := e.2.2.2.2.2.2.2.2.2
  refine ⟨⟨4 * ((i 0).val / 2048) + 3, hlt⟩, (flush0_4 _).mpr (by show (4 * ((i 0).val / 2048) + 3) % 4 = 3; omega), ?_⟩
  rw [mem_blk]
  intro a
  match a with
  | ⟨0, _⟩ =>
    show win0_4.index ⟨4 * ((i 0).val / 2048) + 3, hlt⟩ (0 : Fin 2) * 2048 ≤ (i 0).val
      ∧ (i 0).val < win0_4.index ⟨4 * ((i 0).val / 2048) + 3, hlt⟩ (0 : Fin 2) * 2048 + 2048
    rw [e0]; omega
  | ⟨1, _⟩ =>
    show win0_4.index ⟨4 * ((i 0).val / 2048) + 3, hlt⟩ (1 : Fin 2) * 1 ≤ (i 1).val
      ∧ (i 1).val < win0_4.index ⟨4 * ((i 0).val / 2048) + 3, hlt⟩ (1 : Fin 2) * 1 + 1
    rw [e1]; omega

/-- The output array after the region. -/
theorem final (c : Dev nD) : (dats m 0 c).arrAt 4 cfg0.N = outArr m c :=
  (dats m 0 c).arrAt_eq_of_cover 4 (outArr m c) (flushed_eq m c) cover

/-- The program's result buffer after the host lines that follow the region: the specification's loss. -/
theorem tail (c : Dev nD) :
    Pipeline.afterTail₀ cfgs (dats m) 0 (V0 m) [hostOps1] c main_v7 = fun _ => loss (emb m c) (msk m c) := by
  have hw := (Pipeline.withArrays_arr spec0 launch0.win.arr_inj c (V0 m c) (fun w => (dats m 0 c).arrAt w cfg0.N) 4).trans (final m c)
  unfold Pipeline.afterTail₀
  show StableHlo.after hostOps1 _ (Proc.devRef .tc main_v7) = _
  after_results
  refine Eq.trans ?_ (Cert.KTail.tail_val (outArr m c) (emb m c) (msk m c) (fun i u => outArr_apply m c i u))
  exact congrArg (fun x => Host.divf (F := Ideal) (Host.reduceAdd (F := Ideal) x (constant (F := Ideal) S_ .f32 0x00000000#32) reducesTo_S4096x1_S_d0_1 h_S_)
    (constant (F := Ideal) S_ .f32 0x45800000#32)) hw

/-- The kernel program's run, read: the result at the specification's loss of the arguments, the arguments unchanged. -/
theorem run : θ_run defs (onTc (τ := τ) (main (F := Ideal))) ⟨m, fun _ => 0, ρ⟩ fun r => ∀ c : Dev nD,
      r.2.mem ((c : Thread nD τ).loc main_v7) = (fun _ => loss (emb m c) (msk m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v7 (Pipeline.mem_restRefs_of main_v7 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KFinal

end
-- ==== Proof.RefIsSpec.lean ====
/-
  The reference program computes the specification's loss.

  Read one element at a time, the reference's result is: the quotient by the word 4096.0 of the zero word plus the sum,
  over the 4096 anchor rows i, of log (1 + r i), where r i is the zero word plus the sum over the 8192 columns j of
  exp (D[i, j] − g i) where the mask bit (i, j) is set and of the zero word elsewhere; D = e · eᵀ is the array of all
  row similarities, and g i is the gathered element D[s i, t i] whose start indices are s i = i and t i = i + 4096
  as 32-bit words, each normalised (a negative word has 8192 added: neither word is negative) and then read signed
  and clamped into [0, 8191] (neither is moved). So g i is the anchor–positive similarity of row i, and the whole is
  the specification's loss, the two zero words being the additive zero of the extended reals.
-/
import proofs.«136708_j43035572306063_1_alg».proof.Proof.RefRead
import proofs.«136708_j43035572306063_1_alg».proof.Proof.Spec
import Idealize.ShloMosaic.Lib.Pipeline.Value
import Idealize.ShloMosaic.Lib.ValueIdx
import Idealize.ShloMosaic.PureOps.Ideal.Laws

noncomputable section

open scoped BigOperators

namespace Cert.RefIsSpec

open Cert.ReferenceIdeal Cert.ReferenceIdeal.Gen Cert.ReferenceIdeal.Read Idealize.ShloMosaic Idealize.ShloMosaic.ValueIdx

/-! ## Words -/

theorem toInt_small (n : Nat) (h : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

theorem cmpi_slt_zero_small (n : Nat) (h : n < 2 ^ 31) : IntOp.cmpi .slt (BitVec.ofNat 32 n) 0#32 = 0#1 := by
  have hs : (BitVec.ofNat 32 n).slt 0#32 = false := by
    rw [BitVec.slt_eq_decide, toInt_small n h]
    exact decide_eq_false (by rw [BitVec.toInt_zero]; omega)
  show BitVec.ofBool ((BitVec.ofNat 32 n).slt 0#32) = 0#1
  rw [hs]; rfl

theorem addi_ofNat (n m : Nat) : IntOp.addi (BitVec.ofNat 32 n) (BitVec.ofNat 32 m) = BitVec.ofNat 32 (n + m) :=
  (BitVec.ofNat_add n m).symm

theorem clamp_small (n : Nat) (h : n < 8192) : min (BitVec.ofNat 32 n).toInt.toNat 8191 = n := by
  rw [toInt_small n (by omega), Int.toNat_natCast]; omega

/-! ## The gather read at an index -/

theorem gather_coord0 (idx : IVec S4096x2 32) (i : Fin 4096) :
    gather_S8192x8192_S4096x2_S4096_n_01_n_n_01_1_11.start (ix1 i) idx 0
      + gather_S8192x8192_S4096x2_S4096_n_01_n_n_01_1_11.batchCoord (ix1 i) 0
      + gather_S8192x8192_S4096x2_S4096_n_01_n_n_01_1_11.offCoord (ix1 i) 0
      = min (idx (ix2 i (0 : Fin 2))).toInt.toNat 8191 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S8192x8192_S4096x2_S4096_n_01_n_n_01_1_11.startIndexMap by decide)]
  have hsi : gather_S8192x8192_S4096x2_S4096_n_01_n_n_01_1_11.siIdx (ix1 i)
      ⟨List.idxOf (0 : Fin 2) gather_S8192x8192_S4096x2_S4096_n_01_n_n_01_1_11.startIndexMap,
        List.idxOf_lt_length_iff.2 (by decide)⟩ = ix2 i (0 : Fin 2) := by
    funext b; refine Fin.ext ?_
    match b with
    | ⟨0, _⟩ => rfl
    | ⟨1, _⟩ => rfl
  rw [hsi]
  rfl

theorem gather_coord1 (idx : IVec S4096x2 32) (i : Fin 4096) :
    gather_S8192x8192_S4096x2_S4096_n_01_n_n_01_1_11.start (ix1 i) idx 1
      + gather_S8192x8192_S4096x2_S4096_n_01_n_n_01_1_11.batchCoord (ix1 i) 1
      + gather_S8192x8192_S4096x2_S4096_n_01_n_n_01_1_11.offCoord (ix1 i) 1
      = min (idx (ix2 i (1 : Fin 2))).toInt.toNat 8191 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S8192x8192_S4096x2_S4096_n_01_n_n_01_1_11.startIndexMap by decide)]
  have hsi : gather_S8192x8192_S4096x2_S4096_n_01_n_n_01_1_11.siIdx (ix1 i)
      ⟨List.idxOf (1 : Fin 2) gather_S8192x8192_S4096x2_S4096_n_01_n_n_01_1_11.startIndexMap,
        List.idxOf_lt_length_iff.2 (by decide)⟩ = ix2 i (1 : Fin 2) := by
    funext b; refine Fin.ext ?_
    match b with
    | ⟨0, _⟩ => rfl
    | ⟨1, _⟩ => rfl
  rw [hsi]
  rfl

/-- The gather with both operand axes collapsed and slice sizes 1 × 1: element t of the result is the operand at
    (idx[t,0], idx[t,1]), each read signed and clamped into the axis. -/
theorem gather_read {α : Type} (x : S8192x8192.Idx → α) (idx : IVec S4096x2 32) (i : Fin 4096) :
    Host.gather gather_S8192x8192_S4096x2_S4096_n_01_n_n_01_1_11 x idx (ix1 i)
      = x (ix2 (⟨min (idx (ix2 i (0 : Fin 2))).toInt.toNat 8191, by omega⟩ : Fin 8192)
               (⟨min (idx (ix2 i (1 : Fin 2))).toInt.toNat 8191, by omega⟩ : Fin 8192)) := by
  unfold Host.gather
  refine congrArg x (funext fun a => Fin.ext ?_)
  match a with
  | ⟨0, _⟩ => exact gather_coord0 idx i
  | ⟨1, _⟩ => exact gather_coord1 idx i

/-- The same, with the two clamped start indices named. -/
theorem gather_read' {α : Type} (x : S8192x8192.Idx → α) (idx : IVec S4096x2 32) (i : Fin 4096) (a b : Fin 8192)
    (ha : min (idx (ix2 i (0 : Fin 2))).toInt.toNat 8191 = a.val)
    (hb : min (idx (ix2 i (1 : Fin 2))).toInt.toNat 8191 = b.val) :
    Host.gather gather_S8192x8192_S4096x2_S4096_n_01_n_n_01_1_11 x idx (ix1 i) = x (ix2 a b) := by
  refine (gather_read x idx i).trans (congrArg x (funext fun c => Fin.ext ?_))
  match c with
  | ⟨0, _⟩ => exact ha
  | ⟨1, _⟩ => exact hb

/-! ## The concatenation of two columns read at an index -/

theorem concat_col0 {α : Type} (A B : S4096x1.Idx → α) (i : Fin 4096) :
    concatenate S4096x2 1 [⟨S4096x1, A⟩, ⟨S4096x1, B⟩] concatenates_S4096x1_S4096x1_S4096x2_d1 (ix2 i (0 : Fin 2))
      = A (ix2 i (0 : Fin 1)) :=
  concatenate_apply_piece (t := S4096x2) 1 [⟨S4096x1, A⟩, ⟨S4096x1, B⟩] concatenates_S4096x1_S4096x1_S4096x2_d1
    (ix2 i (0 : Fin 2)) 0 (Nat.zero_lt_succ 1) S4096x1 A rfl rfl 0 rfl (ix2 i (0 : Fin 1))
    (fun b hb => by
      match b with
      | ⟨0, _⟩ => rfl
      | ⟨1, _⟩ => exact absurd rfl hb)
    rfl

theorem concat_col1 {α : Type} (A B : S4096x1.Idx → α) (i : Fin 4096) :
    concatenate S4096x2 1 [⟨S4096x1, A⟩, ⟨S4096x1, B⟩] concatenates_S4096x1_S4096x1_S4096x2_d1 (ix2 i (1 : Fin 2))
      = B (ix2 i (0 : Fin 1)) :=
  concatenate_apply_piece (t := S4096x2) 1 [⟨S4096x1, A⟩, ⟨S4096x1, B⟩] concatenates_S4096x1_S4096x1_S4096x2_d1
    (ix2 i (1 : Fin 2)) 1 (Nat.lt_succ_self 1) S4096x1 B rfl rfl 1 rfl (ix2 i (0 : Fin 1))
    (fun b hb => by
      match b with
      | ⟨0, _⟩ => rfl
      | ⟨1, _⟩ => exact absurd rfl hb)
    rfl

/-! ## The start indices -/

/-- The first start index of row i is the word i: the normalisation adds 8192 only to a negative word. -/
theorem v9_read (i : Fin 4096) : val_main_v9 (F := Ideal) (ix1 i) = BitVec.ofNat 32 i.val := by
  rw [val_main_v9_apply, val_main_v6_apply, val_main_v2_apply, val_main_v5_apply, val_main_c_0_apply]
  show Scalar.select (IntOp.cmpi .slt (BitVec.ofNat 32 i.val) 0#32) _ (BitVec.ofNat 32 i.val) = _
  rw [cmpi_slt_zero_small i.val (by have := i.isLt; omega), select_zero]

/-- The word i + 4096, before normalisation. -/
theorem v4_read (i : Fin 4096) : val_main_v4 (F := Ideal) (ix1 i) = BitVec.ofNat 32 (i.val + 4096) := by
  rw [val_main_v4_apply, val_main_v2_apply, val_main_v3_apply, val_main_c_apply]
  exact addi_ofNat i.val 4096

/-- The second start index of row i is the word i + 4096: it is not negative either. -/
theorem v14_read (i : Fin 4096) : val_main_v14 (F := Ideal) (ix1 i) = BitVec.ofNat 32 (i.val + 4096) := by
  rw [val_main_v14_apply, val_main_v11_apply, v4_read, val_main_v10_apply, val_main_c_2_apply,
    cmpi_slt_zero_small _ (by have := i.isLt; omega), select_zero]

/-- Column 0 of the index pairs. -/
theorem v17_read0 (i : Fin 4096) : val_main_v17 (F := Ideal) (ix2 i (0 : Fin 2)) = BitVec.ofNat 32 i.val := by
  unfold val_main_v17
  refine (concat_col0 _ _ i).trans ?_
  rw [val_main_v15_apply]
  have e : idx_main_v15 (ix2 i (0 : Fin 1)) = ix1 i := funext fun a => Fin.ext (by match a with | ⟨0, _⟩ => rfl)
  rw [e, v9_read]

/-- Column 1 of the index pairs. -/
theorem v17_read1 (i : Fin 4096) : val_main_v17 (F := Ideal) (ix2 i (1 : Fin 2)) = BitVec.ofNat 32 (i.val + 4096) := by
  unfold val_main_v17
  refine (concat_col1 _ _ i).trans ?_
  rw [val_main_v16_apply]
  have e : idx_main_v16 (ix2 i (0 : Fin 1)) = ix1 i := funext fun a => Fin.ext (by match a with | ⟨0, _⟩ => rfl)
  rw [e, v14_read]

/-! ## The similarities -/

/-- Element (a, b) of e · eᵀ is the similarity of rows a and b. -/
theorem v1_read (x0 : (⟨S8192x256, .f32⟩ : BufTy).Contents (Elt Ideal)) (a b : Fin 8192) :
    val_main_v1 (F := Ideal) x0 (ix2 a b) = Cert.Spec.dot x0 a b := by
  rw [val_main_v1_apply]
  unfold Cert.Spec.dot
  refine Finset.sum_congr rfl fun k _ => ?_
  rw [val_main_v0_apply]
  have el : lidx_main_v1 (ix2 a b) k = ix2 a k :=
    funext fun c => Fin.ext (by match c with | ⟨0, _⟩ => rfl | ⟨1, _⟩ => rfl)
  have er : idx_main_v0 (ridx_main_v1 (ix2 a b) k) = ix2 b k :=
    funext fun c => Fin.ext (by match c with | ⟨0, _⟩ => rfl | ⟨1, _⟩ => rfl)
  rw [el, er]

/-- The gathered element of row i is the similarity of row i and row i + 4096. -/
theorem v18_read (x0 : (⟨S8192x256, .f32⟩ : BufTy).Contents (Elt Ideal)) (i : Fin 4096) :
    val_main_v18 (F := Ideal) x0 (ix1 i) = Cert.Spec.ap x0 i := by
  have h0 : min (val_main_v17 (F := Ideal) (ix2 i (0 : Fin 2))).toInt.toNat 8191 = (Cert.Spec.lo i).val := by
    rw [v17_read0, clamp_small _ (by have := i.isLt; omega)]; rfl
  have h1 : min (val_main_v17 (F := Ideal) (ix2 i (1 : Fin 2))).toInt.toNat 8191 = (Cert.Spec.hi i).val := by
    rw [v17_read1, clamp_small _ (by have := i.isLt; omega)]; rfl
  unfold val_main_v18
  exact (gather_read' (val_main_v1 (F := Ideal) x0) (val_main_v17 (F := Ideal)) i (Cert.Spec.lo i) (Cert.Spec.hi i) h0 h1).trans
    (v1_read x0 (Cert.Spec.lo i) (Cert.Spec.hi i))

/-! ## One term, one row, the loss -/

/-- Element (i, j) of the masked exponentials is the specification's term. -/
theorem v25_read (x0 : (⟨S8192x256, .f32⟩ : BufTy).Contents (Elt Ideal)) (x2 : (⟨S8192x8192, .i1⟩ : BufTy).Contents (Elt Ideal))
    (i : Fin 4096) (j : Fin 8192) :
    val_main_v25 (F := Ideal) x0 x2 (ix2 i j) = Cert.Spec.term x0 x2 i j := by
  rw [val_main_v25_apply, val_main_v24_apply, val_main_v23_apply, val_main_v22_apply, val_main_v19_apply,
    val_main_v21_apply, val_main_v20_apply, val_main_call0_v0_apply, val_main_cst_apply]
  have e24 : idx_main_v24 (ix2 i j) = ix2 (Cert.Spec.lo i) j :=
    funext fun c => Fin.ext (by match c with | ⟨0, _⟩ => rfl | ⟨1, _⟩ => rfl)
  have e19 : idx_main_v19 (ix2 i j) = ix2 (Cert.Spec.lo i) j :=
    funext fun c => Fin.ext (by match c with | ⟨0, _⟩ => rfl | ⟨1, _⟩ => rfl)
  have e20 : idx_main_v20 (idx_main_v21 (ix2 i j)) = ix1 i :=
    funext fun c => Fin.ext (by match c with | ⟨0, _⟩ => rfl)
  rw [e24, e19, e20, v18_read, v1_read, Ideal.hostUnary_exp_def, Ideal.subf_def, Ideal.ofBits_def]
  rfl

/-- Row i of the row sums is the specification's row sum: the initial zero word adds nothing. -/
theorem v26_read (x0 : (⟨S8192x256, .f32⟩ : BufTy).Contents (Elt Ideal)) (x2 : (⟨S8192x8192, .i1⟩ : BufTy).Contents (Elt Ideal))
    (i : Fin 4096) :
    val_main_v26 (F := Ideal) x0 x2 (ix1 i) = Cert.Spec.rowSum x0 x2 i := by
  rw [val_main_v26_apply, val_main_cst_4_apply, Ideal.ofBits_def, Ideal.ofBits_zero_f32, zero_add]
  unfold Cert.Spec.rowSum
  refine Finset.sum_congr rfl fun k _ => ?_
  have e : idx_main_v26 (ix1 i) k = ix2 i k :=
    funext fun c => Fin.ext (by match c with | ⟨0, _⟩ => rfl | ⟨1, _⟩ => rfl)
  rw [e, v25_read]

/-- A rank-1 index set is its coordinate range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- THE REFERENCE IS THE SPECIFICATION: its result, at its one index, is the loss of the two argument arrays. -/
theorem ref_eq (x0 : (⟨Cert.ReferenceIdeal.S8192x256, .f32⟩ : BufTy).Contents (Elt Ideal))
    (x2 : (⟨Cert.ReferenceIdeal.S8192x8192, .i1⟩ : BufTy).Contents (Elt Ideal)) :
    Cert.ReferenceIdeal.Read.val_main_v29 (F := Ideal) x0 x2 = fun _ => Cert.Spec.loss x0 x2 := by
  funext j
  rw [val_main_v29_apply, Ideal.hostDivf_def, val_main_v28_apply, val_main_cst_5_apply, val_main_cst_6_apply,
    Ideal.ofBits_def, Ideal.ofBits_def, Ideal.ofBits_zero_f32, zero_add]
  unfold Cert.Spec.loss
  refine congrArg (fun s => Ideal.div s (Ideal.ofBits .f32 0x45800000#32)) ?_
  refine (sum_idx1 _).trans (Finset.sum_congr rfl fun i _ => ?_)
  rw [val_main_v27_apply, Ideal.hostUnary_log1p_def, v26_read]

end Cert.RefIsSpec

end
-- ==== Proof.lean ====
/-
  The kernel computes, for 4096 anchor rows of an 8192 × 256 array of embeddings e and a mask, the mean over the anchor rows
  i of log (1 + Σ_j [mask i j] exp (⟨e_i, e_j⟩ − ⟨e_i, e_{i+4096}⟩)), the inner sum over all 8192 columns j. It does so in
  blocks: for each of two blocks of 2048 anchor rows it walks the four blocks of 2048 columns, keeping in two carried columns
  the anchor–positive similarities (computed at the first column block as a row-wise product and lane sum) and the running
  row sums (a matrix product of the row block with the column block's rows, minus the anchor–positive column, exp, masked,
  lane-summed and added), and stores log (1 + row sum) at the last column block; the host then sums the 4096 entries and
  divides by 4096. The reference forms the whole 8192 × 8192 similarity matrix, reads the anchor–positive similarities off
  its (i, i + 4096) entries, and sums each row over all columns at once.

  At the extended reals both are one function of the arguments, the specification's loss (Proof/Spec.lean): the similarities
  are the same sums of the same products, the changes of float format are identities, exp and log (1 + ·) are the same
  functions on both sides, the mask words the kernel tests against zero are the widened mask bits, and the kernel's sum over
  four column blocks is the reference's sum over all columns by commutativity and associativity of + alone — no finiteness
  of the inputs is used. The idealization rewrote no operation of the kernel, so the preservation claim is trivial.

  Modules: Spec (the specification and the blocks-of-columns law); KPayload, KStep (the body's arithmetic read at an index and
  in the specification's terms); KPieces (what each control case of the body leaves behind, as payloads); KInputs (the arrays
  the region finds and the windows' blocks, in terms of the arguments); KInvariant (what is carried from point to point, by
  induction on the point); KFinal, KTail (the output array, the host lines after the region, the kernel program's run);
  RefIsSpec (the reference's result is the specification's loss); LibKeptColumn (two layout facts about a kept column).
-/
import proofs.«136708_j43035572306063_1_alg».proof.Defs
import proofs.«136708_j43035572306063_1_alg».proof.Proof.Gen.Kernel
import proofs.«136708_j43035572306063_1_alg».proof.Proof.Gen.Kernel.Skeleton
import proofs.«136708_j43035572306063_1_alg».proof.Proof.Gen.Kernel.Launch
import proofs.«136708_j43035572306063_1_alg».proof.Proof.Gen.Kernel.Points
import proofs.«136708_j43035572306063_1_alg».proof.Proof.Gen.Kernel.Frame
import proofs.«136708_j43035572306063_1_alg».proof.Proof.Gen.KernelIdeal
import proofs.«136708_j43035572306063_1_alg».proof.Proof.Gen.KernelIdeal.Skeleton
import proofs.«136708_j43035572306063_1_alg».proof.Proof.Gen.KernelIdeal.Launch
import proofs.«136708_j43035572306063_1_alg».proof.Proof.Gen.KernelIdeal.Points
import proofs.«136708_j43035572306063_1_alg».proof.Proof.Gen.KernelIdeal.Frame
import proofs.«136708_j43035572306063_1_alg».proof.Proof.Gen.ReferenceIdeal
import proofs.«136708_j43035572306063_1_alg».proof.Proof.Gen.Pre_finite_inputs
import proofs.«136708_j43035572306063_1_alg».proof.Proof.KFinal
import proofs.«136708_j43035572306063_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the specification's loss of the arguments in their result. -/
theorem algebraic : Cert.algebraic_KernelIdeal_ReferenceIdeal := by
  intro m ρ m' ρ' _ hagree
  refine ⟨fun c => fun _ => Cert.Spec.loss (Cert.KInputs.emb m c) (Cert.KInputs.msk m c), Cert.KFinal.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.RefIsSpec.ref_eq, (hagree c).1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
